-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel

variable [Facts]

def fn {F : FTy → Type} [FloatOps F] (main_arg0 : FVec F S8192x32 .f32) (main_arg1 : FVec F S8192x32 .f32) (main_arg2 : FVec F S8192x32 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  main_v13
-- ==== Kernel.lean ====
abbrev S8192x32 : Shape := ⟨2, ![8192, 32]⟩
abbrev S1024x32 : Shape := ⟨2, ![1024, 32]⟩
abbrev S2048x32 : Shape := ⟨2, ![2048, 32]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 4
  | .vmem => 11
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x32, .f32⟩
  | .hbm, ⟨3, _⟩ => ⟨S8192x32, .f32⟩
  | .local _ .vmem, ⟨0, _⟩ => ⟨S1024x32, .f32⟩
  | .local _ .vmem, ⟨1, _⟩ => ⟨S1024x32, .f32⟩
  | .local _ .vmem, ⟨2, _⟩ => ⟨S2048x32, .f32⟩
  | .local _ .vmem, ⟨3, _⟩ => ⟨S2048x32, .f32⟩
  | .local _ .vmem, ⟨4, _⟩ => ⟨S2048x32, .f32⟩
  | .local _ .vmem, ⟨5, _⟩ => ⟨S2048x32, .f32⟩
  | .local _ .vmem, ⟨6, _⟩ => ⟨S1024x32, .f32⟩
  | .local _ .vmem, ⟨7, _⟩ => ⟨S1024x32, .f32⟩
  | .local _ .vmem, ⟨8, _⟩ => ⟨S1024x1, .f32⟩
  | .local _ .vmem, ⟨9, _⟩ => ⟨S1024x1, .f32⟩
  | .local _ .vmem, ⟨10, _⟩ => ⟨S1024x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x32 : S1024x1.Broadcasts S1024x32
  dot_S1024x32_S2048x32_S1024x2048_1_1_0_0_n_n_wf : DotDims.WF S1024x32 S2048x32 S1024x2048 [1] [1] [0] [0] [] []
  dot_S1024x2048_S2048x32_S1024x32_1_0_0_1_n_n_wf : DotDims.WF S1024x2048 S2048x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S8192x32.size a
  hwx0_0 : ∀ i : grid0.Coords, EltTy.bits .f32 = 32 ∨ (Rect.block (s := S8192x32) S1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S8192x32.size a
  hwx0_1 : ∀ i : grid0.Coords, EltTy.bits .f32 = 32 ∨ (Rect.block (s := S8192x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S8192x32.size a
  hwx0_2 : ∀ i : grid0.Coords, EltTy.bits .f32 = 32 ∨ (Rect.block (s := S8192x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S8192x32.size a
  hwx0_3 : ∀ i : grid0.Coords, EltTy.bits .f32 = 32 ∨ (Rect.block (s := S8192x32) S1024x32.size (cc0_transform_3 i) (hinb0_3 i)).WholeWords (EltTy.packing .f32)

variable [Facts₀]

def dot_S1024x32_S2048x32_S1024x2048_1_1_0_0_n_n : DotDims S1024x32 S2048x32 S1024x2048 where
  lhsContracting := [1]
  rhsContracting := [1]
  lhsNonContracting := [0]
  rhsNonContracting := [0]
  lhsBatch := []
  rhsBatch := []
  wf := dot_S1024x32_S2048x32_S1024x2048_1_1_0_0_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x32 : Shape := ⟨2, ![8192, 32]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x32, .f32⟩
  | .hbm, ⟨3, _⟩ => ⟨S8192x8192, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x32_S8192x32_S8192x8192_1_1_0_0_n_n_wf : DotDims.WF S8192x32 S8192x32 S8192x8192 [1] [1] [0] [0] [] []
  dot_S8192x8192_S8192x32_S8192x32_1_0_0_1_n_n_wf : DotDims.WF S8192x8192 S8192x32 S8192x32 [1] [0] [0] [1] [] []

variable [Facts₀]

def dot_S8192x32_S8192x32_S8192x8192_1_1_0_0_n_n : DotDims S8192x32 S8192x32 S8192x8192 where
  lhsContracting := [1]
  rhsContracting := [1]
  lhsNonContracting := [0]
  rhsNonContracting := [0]
  lhsBatch := []
  rhsBatch := []
  wf := dot_S8192x32_S8192x32_S8192x8192_1_1_0_0_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.Finite.lean ====
/-
  The precondition, decoded: every entry of the three argument arrays is a real number.

  The precondition is the conjunction, over the three arrays, of "every entry's absolute value is below +∞".  On the extended
  reals `|x| = max x (-x)` is `+∞` exactly at the two infinities, so each entry is the image of a real.
-/
import proofs.«163084_j29076928594213_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Decode

open Idealize.ShloMosaic Cert.Pre_finite_inputs

instance : Subsingleton S_.Idx := ⟨fun a b => funext fun d => d.elim0⟩

/-- An extended real whose absolute value is below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The word `0x7F800000` denotes `+∞`. -/
theorem posInf : Ideal.ofBits .f32 0x7F800000#32 = (⊤ : EReal) := by
  simp [Ideal.ofBits, Ideal.ieee]

/-- One entry's test: `|x| < +∞` answered 1 makes `x` a real. -/
theorem real_of_test (x : EReal) (h : Ideal.cmp .olt (max x (-x)) (Ideal.ofBits .f32 0x7F800000#32) = 1#1) :
    ∃ r : ℝ, x = (r : EReal) := by
  rw [posInf] at h
  refine real_of_abs_lt_top x ?_
  by_contra hn
  simp [Ideal.cmp, hn] at h

variable [Facts]

/-- Under the precondition every entry of each argument array is a real. -/
theorem all_real (a0 a1 a2 : FVec Ideal S8192x32 .f32) (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_test _ (Host.reduce_andi_all _ _ _ _ _ h0' i)
  · exact real_of_test _ (Host.reduce_andi_all _ _ _ _ _ h1 i)
  · exact real_of_test _ (Host.reduce_andi_all _ _ _ _ _ h2 i)

end Cert.Pre_finite_inputs.Decode

end
-- ==== Proof.Pieces.lean ====
/-
  What one grid point of the attention kernel leaves in its three carried buffers and in its output block, as values.

  The body keeps, per query row of the tile, a running maximum `m`, a running normalizer `l` and a running weighted sum
  `acc`.  At every point it reads the query block `x0`, the key block `x1` and the value block `x2`, and stores
    m'   = max m (rowmax (x0 · x1ᵀ)),
    l'   = exp (m - m') · l + rowsum (exp (x0 · x1ᵀ - m')),
    acc' = exp (m - m') · acc + exp (x0 · x1ᵀ - m') · x2.
  At the first point of a tile the three buffers are first reset to `-∞`, `0`, `0`, so the point's reads see the reset
  values; at the last point the output block is `acc' / l'` of the values just stored.  Each buffer is written whole by
  one store (after the reset, by two, the later covering the earlier), so what a point leaves is the later store's value,
  and every load reads a whole buffer.  The statements hold at any float instance.
-/
import proofs.«163084_j29076928594213_2_alg».proof.Proof.Gen.KernelIdeal.Frame
import Idealize.ShloMosaic.Lib.Pipeline.Value
import Idealize.ShloMosaic.Lib.Tactic

set_option maxRecDepth 16384
noncomputable section
namespace Cert.KernelIdeal.Pieces
open Cert.KernelIdeal Cert.KernelIdeal.Gen
open Idealize.ShloMosaic Idealize.ShloMosaic.TcCoe Idealize.SL.Sem Idealize.ShloMosaic.Tactic

variable {F : FTy → Type} [FloatOps F]

/-- The zero offset of a whole-buffer access. -/
theorem hz : (![0, 0] : Fin 2 → Nat) = fun _ => 0 := funext fun a => by fin_cases a <;> rfl

/-- A middle point leaves the new running maximum in the first carried buffer. -/
theorem sB0 (c : Dev nD) (i : grid0.Coords) (arg2 : Memref sig .tc .vmem S1024x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x32 .f32) (harg8 : arg8.IsWhole) (hc0 : ¬cond0_0 i) (hc1 : ¬cond0_1 i) (x0 : Vec F S1024x32 .f32) (x1 : Vec F S2048x32 .f32) (x2 : Vec F S2048x32 .f32) (xs0 : Vec F S1024x1 .f32) (xs1 : Vec F S1024x1 .f32) (xs2 : Vec F S1024x32 .f32) :
    sout0_B_0 c i arg2 harg2 arg3 harg3 arg4 harg4 arg5 harg5 arg6 harg6 arg7 harg7 arg8 harg8 hc0 hc1 x0 x1 x2 xs0 xs1 xs2 = k0_pay2 (k0_pay8 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread,
    View.ld_unit_zero (S := S1024x32) hz, View.ld_unit_zero (S := S2048x32) hz, View.ld_unit_zero (S := S1024x1) hz,
    View.readCov_unit_zero (S := S1024x32) _ hz, View.readCov_unit_zero (S := S1024x1) _ hz]

/-- A middle point leaves the new normalizer in the second carried buffer. -/
theorem sB1 (c : Dev nD) (i : grid0.Coords) (arg2 : Memref sig .tc .vmem S1024x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x32 .f32) (harg8 : arg8.IsWhole) (hc0 : ¬cond0_0 i) (hc1 : ¬cond0_1 i) (x0 : Vec F S1024x32 .f32) (x1 : Vec F S2048x32 .f32) (x2 : Vec F S2048x32 .f32) (xs0 : Vec F S1024x1 .f32) (xs1 : Vec F S1024x1 .f32) (xs2 : Vec F S1024x32 .f32) :
    sout0_B_1 c i arg2 harg2 arg3 harg3 arg4 harg4 arg5 harg5 arg6 harg6 arg7 harg7 arg8 harg8 hc0 hc1 x0 x1 x2 xs0 xs1 xs2 = k0_pay11 x0 x1 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread,
    View.ld_unit_zero (S := S1024x32) hz, View.ld_unit_zero (S := S2048x32) hz, View.ld_unit_zero (S := S1024x1) hz,
    View.readCov_unit_zero (S := S1024x32) _ hz, View.readCov_unit_zero (S := S1024x1) _ hz]

/-- A middle point leaves the new weighted sum in the third carried buffer. -/
theorem sB2 (c : Dev nD) (i : grid0.Coords) (arg2 : Memref sig .tc .vmem S1024x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x32 .f32) (harg8 : arg8.IsWhole) (hc0 : ¬cond0_0 i) (hc1 : ¬cond0_1 i) (x0 : Vec F S1024x32 .f32) (x1 : Vec F S2048x32 .f32) (x2 : Vec F S2048x32 .f32) (xs0 : Vec F S1024x1 .f32) (xs1 : Vec F S1024x1 .f32) (xs2 : Vec F S1024x32 .f32) :
    sout0_B_2 c i arg2 harg2 arg3 harg3 arg4 harg4 arg5 harg5 arg6 harg6 arg7 harg7 arg8 harg8 hc0 hc1 x0 x1 x2 xs0 xs1 xs2 = k0_pay1 (k0_pay12 x0 x1 xs0 x2 xs2) := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread,
    View.ld_unit_zero (S := S1024x32) hz, View.ld_unit_zero (S := S2048x32) hz, View.ld_unit_zero (S := S1024x1) hz,
    View.readCov_unit_zero (S := S1024x32) _ hz, View.readCov_unit_zero (S := S1024x1) _ hz]

/-- The last point of a tile updates the running maximum as a middle point does. -/
theorem sC0 (c : Dev nD) (i : grid0.Coords) (arg2 : Memref sig .tc .vmem S1024x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x32 .f32) (harg8 : arg8.IsWhole) (hc0 : ¬cond0_0 i) (hc1 : cond0_1 i) (x0 : Vec F S1024x32 .f32) (x1 : Vec F S2048x32 .f32) (x2 : Vec F S2048x32 .f32) (xs0 : Vec F S1024x1 .f32) (xs1 : Vec F S1024x1 .f32) (xs2 : Vec F S1024x32 .f32) :
    sout0_C_0 c i arg2 harg2 arg3 harg3 arg4 harg4 arg5 harg5 arg6 harg6 arg7 harg7 arg8 harg8 hc0 hc1 x0 x1 x2 xs0 xs1 xs2 = k0_pay2 (k0_pay8 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S1024x32) hz, View.ld_unit_zero (S := S2048x32) hz, View.ld_unit_zero (S := S1024x1) hz,
    View.readCov_unit_zero (S := S1024x32) _ hz, View.readCov_unit_zero (S := S1024x1) _ hz]

/-- The last point of a tile updates the normalizer as a middle point does. -/
theorem sC1 (c : Dev nD) (i : grid0.Coords) (arg2 : Memref sig .tc .vmem S1024x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x32 .f32) (harg8 : arg8.IsWhole) (hc0 : ¬cond0_0 i) (hc1 : cond0_1 i) (x0 : Vec F S1024x32 .f32) (x1 : Vec F S2048x32 .f32) (x2 : Vec F S2048x32 .f32) (xs0 : Vec F S1024x1 .f32) (xs1 : Vec F S1024x1 .f32) (xs2 : Vec F S1024x32 .f32) :
    sout0_C_1 c i arg2 harg2 arg3 harg3 arg4 harg4 arg5 harg5 arg6 harg6 arg7 harg7 arg8 harg8 hc0 hc1 x0 x1 x2 xs0 xs1 xs2 = k0_pay11 x0 x1 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S1024x32) hz, View.ld_unit_zero (S := S2048x32) hz, View.ld_unit_zero (S := S1024x1) hz,
    View.readCov_unit_zero (S := S1024x32) _ hz, View.readCov_unit_zero (S := S1024x1) _ hz]

/-- The last point of a tile updates the weighted sum as a middle point does. -/
theorem sC2 (c : Dev nD) (i : grid0.Coords) (arg2 : Memref sig .tc .vmem S1024x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x32 .f32) (harg8 : arg8.IsWhole) (hc0 : ¬cond0_0 i) (hc1 : cond0_1 i) (x0 : Vec F S1024x32 .f32) (x1 : Vec F S2048x32 .f32) (x2 : Vec F S2048x32 .f32) (xs0 : Vec F S1024x1 .f32) (xs1 : Vec F S1024x1 .f32) (xs2 : Vec F S1024x32 .f32) :
    sout0_C_2 c i arg2 harg2 arg3 harg3 arg4 harg4 arg5 harg5 arg6 harg6 arg7 harg7 arg8 harg8 hc0 hc1 x0 x1 x2 xs0 xs1 xs2 = k0_pay1 (k0_pay12 x0 x1 xs0 x2 xs2) := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S1024x32) hz, View.ld_unit_zero (S := S2048x32) hz, View.ld_unit_zero (S := S1024x1) hz,
    View.readCov_unit_zero (S := S1024x32) _ hz, View.readCov_unit_zero (S := S1024x1) _ hz]

/-- The last point of a tile stores, into the output block, the weighted sum just stored divided by the normalizer just stored. -/
theorem oC3 (c : Dev nD) (i : grid0.Coords) (arg2 : Memref sig .tc .vmem S1024x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x32 .f32) (harg8 : arg8.IsWhole) (hc0 : ¬cond0_0 i) (hc1 : cond0_1 i) (x0 : Vec F S1024x32 .f32) (x1 : Vec F S2048x32 .f32) (x2 : Vec F S2048x32 .f32) (xs0 : Vec F S1024x1 .f32) (xs1 : Vec F S1024x1 .f32) (xs2 : Vec F S1024x32 .f32) :
    out0_C_3 c i arg2 harg2 arg3 harg3 arg4 harg4 arg5 harg5 arg6 harg6 arg7 harg7 arg8 harg8 hc0 hc1 x0 x1 x2 xs0 xs1 xs2 = k0_pay3 (k0_pay1 (k0_pay12 x0 x1 xs0 x2 xs2)) (k0_pay11 x0 x1 xs0 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S1024x32) hz, View.ld_unit_zero (S := S2048x32) hz, View.ld_unit_zero (S := S1024x1) hz,
    View.readCov_unit_zero (S := S1024x32) _ hz, View.readCov_unit_zero (S := S1024x1) _ hz]

/-- The first point of a tile: the running maximum, from the reset value. -/
theorem sA0 (c : Dev nD) (i : grid0.Coords) (arg2 : Memref sig .tc .vmem S1024x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x32 .f32) (harg8 : arg8.IsWhole) (hc0 : cond0_0 i) (hc1 : ¬cond0_1 i) (x0 : Vec F S1024x32 .f32) (x1 : Vec F S2048x32 .f32) (x2 : Vec F S2048x32 .f32) :
    sout0_A_0 c i arg2 harg2 arg3 harg3 arg4 harg4 arg5 harg5 arg6 harg6 arg7 harg7 arg8 harg8 hc0 hc1 x0 x1 x2 = k0_pay2 (k0_pay8 x0 x1 k0_pay4) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg6.read_unread, harg7.read_unread, harg8.read_unread,
    View.ld_unit_zero (S := S1024x32) hz, View.ld_unit_zero (S := S2048x32) hz, View.ld_unit_zero (S := S1024x1) hz,
    View.readCov_unit_zero (S := S1024x32) _ hz, View.readCov_unit_zero (S := S1024x1) _ hz]

/-- The first point of a tile: the normalizer, from the reset values. -/
theorem sA1 (c : Dev nD) (i : grid0.Coords) (arg2 : Memref sig .tc .vmem S1024x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x32 .f32) (harg8 : arg8.IsWhole) (hc0 : cond0_0 i) (hc1 : ¬cond0_1 i) (x0 : Vec F S1024x32 .f32) (x1 : Vec F S2048x32 .f32) (x2 : Vec F S2048x32 .f32) :
    sout0_A_1 c i arg2 harg2 arg3 harg3 arg4 harg4 arg5 harg5 arg6 harg6 arg7 harg7 arg8 harg8 hc0 hc1 x0 x1 x2 = k0_pay11 x0 x1 k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg6.read_unread, harg7.read_unread, harg8.read_unread,
    View.ld_unit_zero (S := S1024x32) hz, View.ld_unit_zero (S := S2048x32) hz, View.ld_unit_zero (S := S1024x1) hz,
    View.readCov_unit_zero (S := S1024x32) _ hz, View.readCov_unit_zero (S := S1024x1) _ hz]

/-- The first point of a tile: the weighted sum, from the reset values. -/
theorem sA2 (c : Dev nD) (i : grid0.Coords) (arg2 : Memref sig .tc .vmem S1024x32 .f32) (harg2 : arg2.IsWhole) (arg3 : Memref sig .tc .vmem S2048x32 .f32) (harg3 : arg3.IsWhole) (arg4 : Memref sig .tc .vmem S2048x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x32 .f32) (harg8 : arg8.IsWhole) (hc0 : cond0_0 i) (hc1 : ¬cond0_1 i) (x0 : Vec F S1024x32 .f32) (x1 : Vec F S2048x32 .f32) (x2 : Vec F S2048x32 .f32) :
    sout0_A_2 c i arg2 harg2 arg3 harg3 arg4 harg4 arg5 harg5 arg6 harg6 arg7 harg7 arg8 harg8 hc0 hc1 x0 x1 x2 = k0_pay1 (k0_pay12 x0 x1 k0_pay4 x2 k0_pay6) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x32) hz]
  simp only [View.readAt_eq_ld, harg2.read_unread, harg3.read_unread, harg4.read_unread, harg6.read_unread, harg7.read_unread, harg8.read_unread,
    View.ld_unit_zero (S := S1024x32) hz, View.ld_unit_zero (S := S2048x32) hz, View.ld_unit_zero (S := S1024x1) hz,
    View.readCov_unit_zero (S := S1024x32) _ hz, View.readCov_unit_zero (S := S1024x1) _ hz]

end Cert.KernelIdeal.Pieces
end
-- ==== Proof.LibOnlineSoftmax.lean ====
/-
  Softmax-weighted sums computed block by block, on the extended reals.

  For a row of real scores `s k` and real values `v k d` the softmax-weighted sum is
  `o d = (∑ k, exp (s k) · v k d) / (∑ k, exp (s k))`.  It does not change when every score is shifted by one real `μ`:
  `exp (s k - μ) = exp (s k) · exp (-μ)`, and the common factor cancels.  So a program may subtract ANY real from the
  scores before exponentiating — the row's maximum, or a running maximum over the columns seen so far.

  The blockwise recurrence keeps, after a set `A` of columns, a real `μ` (the running maximum; only its being real is
  used), `l = ∑_{k∈A} exp (s k - μ)` and `a d = ∑_{k∈A} exp (s k - μ) · v k d`.  A further block `B` of columns, disjoint
  from `A`, moves `μ` to `μ' = max μ (max_B s)`, and rescales: `exp (μ - μ') · exp (s k - μ) = exp (s k - μ')`, so
  `exp (μ - μ') · l + ∑_{k∈B} exp (s k - μ')` is the new `l` over `A ∪ B`, and the same for `a`.  The first block starts from
  `μ = -∞`, `l = 0`, `a = 0`: there `exp (-∞ - μ') = 0` and the old terms vanish.  All sums are finite sums of reals, so on
  the extended reals each step is the real step under the coercion; the maximum of a nonempty block of reals is one of them,
  hence real.
-/
import Idealize.ShloMosaic.PureOps.Ideal
import Mathlib

noncomputable section

open scoped BigOperators

namespace Cert.OnlineSoftmax

open Idealize.ShloMosaic

/-- The coercion to the extended reals commutes with a finite sum. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The exact exponential at a real. -/
theorem exp_coe (x : ℝ) : Ideal.exp (x : EReal) = ((Real.exp x : ℝ) : EReal) := rfl

/-- The exact exponential of a difference of reals. -/
theorem exp_coe_sub (x y : ℝ) : Ideal.exp ((x : EReal) - (y : EReal)) = ((Real.exp (x - y) : ℝ) : EReal) := by
  rw [← EReal.coe_sub]; rfl

/-- `e^{-∞ - y} = 0` for a real `y`. -/
theorem exp_bot_sub (y : ℝ) : Ideal.exp ((⊥ : EReal) - (y : EReal)) = 0 := by
  have h : (⊥ : EReal) - (y : EReal) = ⊥ := by
    rw [sub_eq_add_neg]; exact EReal.bot_add _
  rw [h]; rfl

/-- The maximum, from `-∞`, of a nonempty finite family of reals is a real (one of them). -/
theorem fold_max_coe {b : ℕ} (hb : 0 < b) (f : Fin b → ℝ) :
    ∃ β : ℝ, (Finset.univ : Finset (Fin b)).fold max (⊥ : EReal) (fun q => (f q : EReal)) = (β : EReal) := by
  haveI : Nonempty (Fin b) := ⟨⟨0, hb⟩⟩
  have h : (Finset.univ : Finset (Fin b)).fold max (⊥ : EReal) (fun q => (f q : EReal))
      = (Finset.univ : Finset (Fin b)).sup (fun q => (f q : EReal)) := rfl
  rw [h]
  obtain ⟨q, _, hq⟩ := Finset.exists_mem_eq_sup (Finset.univ : Finset (Fin b)) Finset.univ_nonempty (fun q => (f q : EReal))
  exact ⟨f q, hq⟩

variable {κ δ : Type} [DecidableEq κ]

/-- The state of the recurrence after the columns `A`: the running maximum is a real `μ`, and the two running sums are
    the sums over `A` of the exponentials shifted by `μ`. -/
def Inv (s : κ → ℝ) (v : κ → δ → ℝ) (A : Finset κ) (mE lE : EReal) (aE : δ → EReal) : Prop :=
  ∃ μ : ℝ, mE = (μ : EReal) ∧ lE = ((∑ k ∈ A, Real.exp (s k - μ) : ℝ) : EReal)
    ∧ ∀ d, aE d = ((∑ k ∈ A, Real.exp (s k - μ) * v k d : ℝ) : EReal)

/-- The new running maximum: the old one against the block's maximum from `-∞`. -/
def mNew {b : ℕ} (mE : EReal) (S : Fin b → EReal) : EReal :=
  max mE ((Finset.univ : Finset (Fin b)).fold max ⊥ S)

/-- The new normalizer: the old one rescaled, plus the block's exponentials. -/
def lNew {b : ℕ} (mE lE : EReal) (S : Fin b → EReal) : EReal :=
  Ideal.exp (mE - mNew mE S) * lE + ∑ q : Fin b, Ideal.exp (S q - mNew mE S)

/-- The new weighted sum (one output column): the old one rescaled, plus the block's exponentials times its values. -/
def aNew {b : ℕ} (mE aE : EReal) (S V : Fin b → EReal) : EReal :=
  Ideal.exp (mE - mNew mE S) * aE + ∑ q : Fin b, Ideal.exp (S q - mNew mE S) * V q

/-- The first block, from `(-∞, 0, 0)`. -/
theorem step_first {b : ℕ} (hb : 0 < b) (col : Fin b ↪ κ) (s : κ → ℝ) (v : κ → δ → ℝ) :
    Inv s v (Finset.univ.map col) (mNew ⊥ (fun q => ((s (col q) : ℝ) : EReal)))
      (lNew ⊥ 0 (fun q => ((s (col q) : ℝ) : EReal)))
      (fun d => aNew ⊥ 0 (fun q => ((s (col q) : ℝ) : EReal)) (fun q => ((v (col q) d : ℝ) : EReal))) := by
  obtain ⟨β, hβ⟩ := fold_max_coe hb (fun q => s (col q))
  have hm : mNew ⊥ (fun q => ((s (col q) : ℝ) : EReal)) = (β : EReal) := by
    unfold mNew; rw [hβ]; exact max_eq_right bot_le
  refine ⟨β, hm, ?_, fun d => ?_⟩
  · unfold lNew
    rw [hm, exp_bot_sub, zero_mul, zero_add, Finset.sum_map, coe_sum]
    exact Finset.sum_congr rfl fun q _ => exp_coe_sub _ _
  · show aNew ⊥ 0 (fun q => ((s (col q) : ℝ) : EReal)) (fun q => ((v (col q) d : ℝ) : EReal)) = _
    unfold aNew
    rw [hm, exp_bot_sub, zero_mul, zero_add, Finset.sum_map, coe_sum]
    refine Finset.sum_congr rfl fun q _ => ?_
    rw [exp_coe_sub, ← EReal.coe_mul]

/-- A further block, disjoint from the columns already seen. -/
theorem step_next {b : ℕ} (hb : 0 < b) (col : Fin b ↪ κ) (s : κ → ℝ) (v : κ → δ → ℝ) (A : Finset κ)
    (hd : Disjoint A (Finset.univ.map col)) (mE lE : EReal) (aE : δ → EReal) (h : Inv s v A mE lE aE) :
    Inv s v (A ∪ Finset.univ.map col) (mNew mE (fun q => ((s (col q) : ℝ) : EReal)))
      (lNew mE lE (fun q => ((s (col q) : ℝ) : EReal)))
      (fun d => aNew mE (aE d) (fun q => ((s (col q) : ℝ) : EReal)) (fun q => ((v (col q) d : ℝ) : EReal))) := by
  obtain ⟨μ, rfl, rfl, ha⟩ := h
  obtain ⟨β, hβ⟩ := fold_max_coe hb (fun q => s (col q))
  have hm : mNew (μ : EReal) (fun q => ((s (col q) : ℝ) : EReal)) = ((max μ β : ℝ) : EReal) := by
    unfold mNew; rw [hβ]; exact (EReal.coe_strictMono.monotone.map_max).symm
  have resc : ∀ (g : κ → ℝ), Real.exp (μ - max μ β) * (∑ k ∈ A, Real.exp (s k - μ) * g k)
      = ∑ k ∈ A, Real.exp (s k - max μ β) * g k := by
    intro g
    rw [Finset.mul_sum]
    refine Finset.sum_congr rfl fun k _ => ?_
    rw [← mul_assoc, ← Real.exp_add]
    congr 2; ring
  refine ⟨max μ β, hm, ?_, fun d => ?_⟩
  · unfold lNew
    rw [hm, exp_coe_sub, ← EReal.coe_mul, Finset.sum_union hd, Finset.sum_map, EReal.coe_add, coe_sum (Finset.univ)]
    refine congrArg₂ (· + ·) ?_ ?_
    · have := resc (fun _ => 1)
      simp only [mul_one] at this
      rw [this]
    · exact Finset.sum_congr rfl fun q _ => exp_coe_sub _ _
  · show aNew (μ : EReal) (aE d) (fun q => ((s (col q) : ℝ) : EReal)) (fun q => ((v (col q) d : ℝ) : EReal)) = _
    unfold aNew
    rw [hm, ha d, exp_coe_sub, ← EReal.coe_mul, Finset.sum_union hd, Finset.sum_map, EReal.coe_add, coe_sum (Finset.univ)]
    refine congrArg₂ (· + ·) ?_ ?_
    · rw [resc (fun k => v k d)]
    · refine Finset.sum_congr rfl fun q _ => ?_
      rw [exp_coe_sub, ← EReal.coe_mul]

/-- The softmax-weighted sum of the values over the columns `A`. -/
def wsum (s : κ → ℝ) (v : κ → δ → ℝ) (A : Finset κ) (d : δ) : ℝ :=
  (∑ k ∈ A, Real.exp (s k) * v k d) / (∑ k ∈ A, Real.exp (s k))

/-- Shifting every score by one real does not change the softmax-weighted sum. -/
theorem wsum_shift (s : κ → ℝ) (v : κ → δ → ℝ) (A : Finset κ) (d : δ) (μ : ℝ) :
    (∑ k ∈ A, Real.exp (s k - μ) * v k d) / (∑ k ∈ A, Real.exp (s k - μ)) = wsum s v A d := by
  unfold wsum
  have e1 : ∑ k ∈ A, Real.exp (s k - μ) * v k d = Real.exp (-μ) * ∑ k ∈ A, Real.exp (s k) * v k d := by
    rw [Finset.mul_sum]
    refine Finset.sum_congr rfl fun k _ => ?_
    rw [sub_eq_add_neg, Real.exp_add]; ring
  have e2 : ∑ k ∈ A, Real.exp (s k - μ) = Real.exp (-μ) * ∑ k ∈ A, Real.exp (s k) := by
    rw [Finset.mul_sum]
    refine Finset.sum_congr rfl fun k _ => ?_
    rw [sub_eq_add_neg, Real.exp_add]; ring
  rw [e1, e2, mul_div_mul_left _ _ (Real.exp_pos _).ne']

/-- A sum of exponentials over a nonempty set is not zero. -/
theorem sum_exp_ne_zero (f : κ → ℝ) (A : Finset κ) (hA : A.Nonempty) : (∑ k ∈ A, Real.exp (f k)) ≠ 0 :=
  (Finset.sum_pos (fun k _ => Real.exp_pos (f k)) hA).ne'

/-- The recurrence's last step: the weighted sum divided by the normalizer is the softmax-weighted sum. -/
theorem final_div (s : κ → ℝ) (v : κ → δ → ℝ) (A : Finset κ) (hA : A.Nonempty) (mE lE : EReal) (aE : δ → EReal)
    (h : Inv s v A mE lE aE) (d : δ) : Ideal.div (aE d) lE = ((wsum s v A d : ℝ) : EReal) := by
  obtain ⟨μ, _, rfl, ha⟩ := h
  have hne : (∑ k ∈ A, Real.exp (s k - μ)) ≠ 0 := sum_exp_ne_zero (fun k => s k - μ) A hA
  rw [Ideal.div_coe hne, ha d, ← EReal.coe_mul, ← wsum_shift s v A d μ, mul_one_div]

/-- The reference's order: each exponential divided by the normalizer (a sum started from zero), then weighted and
    summed — the same softmax-weighted sum, for any real shift `μ`. -/
theorem ref_sum [Fintype κ] [Nonempty κ] (s : κ → ℝ) (v : κ → δ → ℝ) (μ : ℝ) (d : δ) :
    ∑ k : κ, Ideal.div (Ideal.exp (((s k : ℝ) : EReal) - (μ : EReal)))
        ((0 : EReal) + ∑ k' : κ, Ideal.exp (((s k' : ℝ) : EReal) - (μ : EReal))) * ((v k d : ℝ) : EReal)
      = ((wsum s v Finset.univ d : ℝ) : EReal) := by
  have hL : (0 : EReal) + ∑ k' : κ, Ideal.exp (((s k' : ℝ) : EReal) - (μ : EReal))
      = ((∑ k' : κ, Real.exp (s k' - μ) : ℝ) : EReal) := by
    rw [zero_add, coe_sum]
    exact Finset.sum_congr rfl fun k _ => exp_coe_sub _ _
  have hne : (∑ k' : κ, Real.exp (s k' - μ)) ≠ 0 :=
    sum_exp_ne_zero (fun k => s k - μ) Finset.univ Finset.univ_nonempty
  have hW : ((wsum s v Finset.univ d : ℝ) : EReal)
      = ∑ k : κ, ((Real.exp (s k - μ) * (1 / ∑ k' : κ, Real.exp (s k' - μ)) * v k d : ℝ) : EReal) := by
    rw [← wsum_shift s v Finset.univ d μ, ← coe_sum]
    refine congrArg (fun x : ℝ => (x : EReal)) ?_
    rw [Finset.sum_div]
    exact Finset.sum_congr rfl fun k _ => by ring
  rw [hL, hW]
  refine Finset.sum_congr rfl fun k _ => ?_
  rw [Ideal.div_coe hne, exp_coe_sub, ← EReal.coe_mul, ← EReal.coe_mul]

end Cert.OnlineSoftmax

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibNtMatmul.lean ====
/-
  A product against a transposed right operand, read at an entry, at the extended reals.

  A kernel's `q · kᵀ` prints as a matrix product whose dimension numbers contract the LAST axis of both operands
  (rows of the left against rows of the right).  Accumulated into the zero block, its entry (a, b) is the sum over the
  shared axis of the products of the entries: the accumulator adds nothing and, on the extended reals, nothing is rounded
  and no order of the summands is left.  Generic in the three extents, the two operand formats and the precision key.
-/
import Idealize.ShloMosaic.Lib.ValueIdx
import Idealize.ShloMosaic.PureOps.Ideal.Laws

noncomputable section

open scoped BigOperators

namespace Cert.LibNtMatmul

open Idealize.ShloMosaic Idealize.ShloMosaic.ValueIdx

/-- `A · Bᵀ` of an m×k block by an n×k block into the zero block: entry `(a, b)` is `Σ_c A(a,c)·B(b,c)`. -/
theorem matmul_nt_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibNtMatmul

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.StepValue.lean ====
/-
  One grid point's arithmetic read at an index, on the extended reals.

  With the query block `x0` (1024 rows), the key block `x1` and the value block `x2` (2048 rows each) and the carried
  `m`, `l`, `acc`, row `p` of the point's results is the blockwise softmax recurrence of that row: the block's scores are
  `S k = ∑_c x0 (p, c) · x1 (k, c)` (a product against the transposed key block; the roundings to bf16 are the identity
  here), the new maximum is `max m (max_k S k)` with the block maximum folded from `-∞`, the old sums are rescaled by
  `exp (m - m')`, the block adds `∑_k exp (S k - m')` to the normalizer and `∑_k exp (S k - m') · x2 (k, d)` to column `d`
  of the weighted sum, and the last point's output is the weighted sum divided by the normalizer.  The carried columns
  have one entry per row, read at `(p, 0)`.
-/
import proofs.«163084_j29076928594213_2_alg».proof.Proof.Gen.KernelIdeal.Skeleton
import proofs.«163084_j29076928594213_2_alg».proof.Proof.LibOnlineSoftmax
import proofs.«163084_j29076928594213_2_alg».proof.Proof.LibKeepdims
import proofs.«163084_j29076928594213_2_alg».proof.Proof.LibNtMatmul
import proofs.«163084_j29076928594213_2_alg».proof.Proof.LibPlainMatmul
import Idealize.ShloMosaic.Lib.Pipeline.Value
import Idealize.ShloMosaic.Lib.ValueIdx

noncomputable section

open scoped BigOperators

namespace Cert.KernelIdeal.StepValue

open Cert.KernelIdeal Cert.KernelIdeal.Gen Idealize.ShloMosaic Idealize.ShloMosaic.ValueIdx Cert.OnlineSoftmax

/-- The word `0xFF800000` denotes `-∞`. -/
theorem negInf : Ideal.ofBits .f32 0xFF800000#32 = (⊥ : EReal) := by
  simp [Ideal.ofBits, Ideal.ieee]

/-- The block's scores: row `p` of the queries against row `k` of the keys. -/
theorem scores_apply (x0 : Vec Ideal S1024x32 .f32) (x1 : Vec Ideal S2048x32 .f32) (p : Fin 1024) (k : Fin 2048) :
    k0_pay7 (F := Ideal) x0 x1 (ix2 p k) = ∑ c : Fin 32, x0 (ix2 p c) * x1 (ix2 k c) := by
  unfold k0_pay7
  exact Cert.LibNtMatmul.matmul_nt_zero_apply none _ _ p k

/-- The new running maximum of row `p`. -/
theorem max_apply (x0 : Vec Ideal S1024x32 .f32) (x1 : Vec Ideal S2048x32 .f32) (ms : Vec Ideal S1024x1 .f32) (p : Fin 1024) :
    k0_pay8 (F := Ideal) x0 x1 ms (ix2 p (0 : Fin 1))
      = mNew (ms (ix2 p (0 : Fin 1))) (fun k : Fin 2048 => k0_pay7 (F := Ideal) x0 x1 (ix2 p k)) := by
  unfold k0_pay8 mNew
  refine congrArg (max _) ?_
  refine (shapeCast_a_a1_apply _ _ p 0).trans ?_
  refine (multiReduction_maximumf_row _ _ _ _ _ p).trans ?_
  rw [negInf]

/-- The rescaling factor of row `p`. -/
theorem alpha_apply (x0 : Vec Ideal S1024x32 .f32) (x1 : Vec Ideal S2048x32 .f32) (ms : Vec Ideal S1024x1 .f32) (p : Fin 1024) :
    k0_pay9 (F := Ideal) x0 x1 ms (ix2 p (0 : Fin 1))
      = Ideal.exp (ms (ix2 p (0 : Fin 1)) - k0_pay8 (F := Ideal) x0 x1 ms (ix2 p (0 : Fin 1))) := rfl

/-- The block's shifted exponentials. -/
theorem expo_apply (x0 : Vec Ideal S1024x32 .f32) (x1 : Vec Ideal S2048x32 .f32) (ms : Vec Ideal S1024x1 .f32) (p : Fin 1024) (k : Fin 2048) :
    k0_pay10 (F := Ideal) x0 x1 ms (ix2 p k)
      = Ideal.exp (k0_pay7 (F := Ideal) x0 x1 (ix2 p k) - k0_pay8 (F := Ideal) x0 x1 ms (ix2 p (0 : Fin 1))) := by
  unfold k0_pay10
  refine congrArg Ideal.exp (congrArg (k0_pay7 (F := Ideal) x0 x1 (ix2 p k) - ·) ?_)
  exact broadcastTo_a1_ab_apply _ _ p k

/-- The new normalizer of row `p`. -/
theorem norm_apply (x0 : Vec Ideal S1024x32 .f32) (x1 : Vec Ideal S2048x32 .f32) (ms ls : Vec Ideal S1024x1 .f32) (p : Fin 1024) :
    k0_pay11 (F := Ideal) x0 x1 ms ls (ix2 p (0 : Fin 1))
      = lNew (ms (ix2 p (0 : Fin 1))) (ls (ix2 p (0 : Fin 1))) (fun k : Fin 2048 => k0_pay7 (F := Ideal) x0 x1 (ix2 p k)) := by
  unfold k0_pay11 lNew
  refine (congrFun (shapeCast_self _ _) _).trans ?_
  refine congrArg₂ (· + ·) ?_ ?_
  · refine congrArg (· * ls (ix2 p (0 : Fin 1))) ?_
    rw [alpha_apply, max_apply]
  · refine (shapeCast_a_a1_apply _ _ p 0).trans ?_
    refine (multiReduction_add_row _ _ _ _ _ p).trans ?_
    refine Finset.sum_congr rfl fun k _ => ?_
    rw [expo_apply, max_apply]

/-- Column `d` of the new weighted sum of row `p`. -/
theorem acc_apply (x0 : Vec Ideal S1024x32 .f32) (x1 : Vec Ideal S2048x32 .f32) (ms : Vec Ideal S1024x1 .f32)
    (x2 : Vec Ideal S2048x32 .f32) (ac : Vec Ideal S1024x32 .f32) (p : Fin 1024) (d : Fin 32) :
    k0_pay12 (F := Ideal) x0 x1 ms x2 ac (ix2 p d)
      = aNew (ms (ix2 p (0 : Fin 1))) (ac (ix2 p d)) (fun k : Fin 2048 => k0_pay7 (F := Ideal) x0 x1 (ix2 p k))
          (fun k : Fin 2048 => x2 (ix2 k d)) := by
  unfold k0_pay12 aNew
  refine congrArg₂ (· + ·) ?_ ?_
  · refine congrArg (· * ac (ix2 p d)) ?_
    refine (broadcastTo_a1_ab_apply _ _ p d).trans ?_
    rw [alpha_apply, max_apply]
  · refine (Cert.LibPlainMatmul.matmul_plain_zero_apply none _ _ p d).trans ?_
    refine Finset.sum_congr rfl fun k _ => ?_
    refine congrArg (· * x2 (ix2 k d)) ?_
    show k0_pay10 (F := Ideal) x0 x1 ms (ix2 p k) = _
    rw [expo_apply, max_apply]

/-- The output block: the weighted sum over the normalizer, row by row. -/
theorem out_apply (ac : Vec Ideal S1024x32 .f32) (ls : Vec Ideal S1024x1 .f32) (p : Fin 1024) (d : Fin 32) :
    k0_pay3 (F := Ideal) ac ls (ix2 p d) = Ideal.div (ac (ix2 p d)) (ls (ix2 p (0 : Fin 1))) := by
  unfold k0_pay3
  exact congrArg (Ideal.div _) (broadcastTo_a1_ab_apply _ _ p d)

/-- The stores into the carried weighted sum and maximum go through a cast to their own shape: the identity. -/
theorem pay1_eq (v : FVec Ideal S1024x32 .f32) : k0_pay1 (F := Ideal) v = v := shapeCast_self _ _
theorem pay2_eq (v : FVec Ideal S1024x1 .f32) : k0_pay2 (F := Ideal) v = v := shapeCast_self _ _

/-- The reset values: `-∞` for the maximum, zero for the two sums. -/
theorem reset_max (j : S1024x1.Idx) : k0_pay4 (F := Ideal) j = (⊥ : EReal) := by
  unfold k0_pay4
  refine (congrFun (shapeCast_self _ _) _).trans ?_
  exact negInf
theorem reset_norm (j : S1024x1.Idx) : k0_pay5 (F := Ideal) j = (0 : EReal) := by
  unfold k0_pay5
  refine (congrFun (shapeCast_self _ _) _).trans ?_
  exact Ideal.ofBits_zero_f32
theorem reset_acc (j : S1024x32.Idx) : k0_pay6 (F := Ideal) j = (0 : EReal) := by
  unfold k0_pay6
  refine (congrFun (shapeCast_self _ _) _).trans ?_
  exact Ideal.ofBits_zero_f32

end Cert.KernelIdeal.StepValue

end
-- ==== Proof.Tiles.lean ====
/-
  The blockwise recurrence along one tile of query rows.

  A tile holds 1024 query rows; its four grid points take the key and value rows 2048 at a time.  Written for real
  arrays `q`, `kk`, `vv` (rows × 32): the score of query row `r` against key row `k` is `∑_c q r c · kk k c`; after `n`
  blocks the key rows seen are those below `2048 · n`, block `j` brings the rows `2048 · j + x`, disjoint from those seen,
  and four blocks are all 8192.  `RowInv` says that every row of the tile's three carried buffers is in the state of the
  recurrence for the rows seen; one grid point's stores carry it from `n` to `n + 1` blocks — from the reset values at the
  tile's first point — and after the fourth block the output row is the softmax-weighted sum of the value rows.
-/
import proofs.«163084_j29076928594213_2_alg».proof.Proof.StepValue

noncomputable section

open scoped BigOperators

namespace Cert.KernelIdeal.Tiles

open Cert.KernelIdeal Cert.KernelIdeal.Gen Idealize.ShloMosaic Idealize.ShloMosaic.ValueIdx Cert.OnlineSoftmax
open Cert.KernelIdeal.StepValue

/-- The score of query row `r` against key row `k`. -/
def score (q kk : Fin 8192 → Fin 32 → ℝ) (r k : Fin 8192) : ℝ := ∑ c : Fin 32, q r c * kk k c

/-- The key rows seen after `n` blocks. -/
def seen (n : ℕ) : Finset (Fin 8192) := Finset.univ.filter (fun k => k.val < 2048 * n)

/-- Block `j`'s rows among all the key rows. -/
def col (j : ℕ) (hj : j < 4) : Fin 2048 ↪ Fin 8192 :=
  ⟨fun x => ⟨2048 * j + x.val, by have := x.isLt; omega⟩, fun a b h => by
    have h' : 2048 * j + a.val = 2048 * j + b.val := congrArg Fin.val h
    exact Fin.ext (by omega)⟩

theorem col_val (j : ℕ) (hj : j < 4) (x : Fin 2048) : (col j hj x).val = 2048 * j + x.val := rfl

theorem mem_seen (n : ℕ) (k : Fin 8192) : k ∈ seen n ↔ k.val < 2048 * n := by
  unfold seen; rw [Finset.mem_filter]; exact ⟨fun h => h.2, fun h => ⟨Finset.mem_univ _, h⟩⟩

theorem mem_block (j : ℕ) (hj : j < 4) (k : Fin 8192) :
    k ∈ Finset.univ.map (col j hj) ↔ 2048 * j ≤ k.val ∧ k.val < 2048 * (j + 1) := by
  rw [Finset.mem_map]
  constructor
  · rintro ⟨x, _, rfl⟩
    have := x.isLt; rw [col_val]; omega
  · intro h
    exact ⟨⟨k.val - 2048 * j, by omega⟩, Finset.mem_univ _, Fin.ext (by rw [col_val]; show 2048 * j + (k.val - 2048 * j) = k.val; omega)⟩

theorem seen_zero : seen 0 = ∅ := by
  ext k; rw [mem_seen]; simp

theorem seen_succ (j : ℕ) (hj : j < 4) : seen (j + 1) = seen j ∪ Finset.univ.map (col j hj) := by
  ext k; rw [Finset.mem_union, mem_seen, mem_seen, mem_block]; omega

theorem seen_disj (j : ℕ) (hj : j < 4) : Disjoint (seen j) (Finset.univ.map (col j hj)) := by
  rw [Finset.disjoint_left]
  intro k hk hk'
  rw [mem_seen] at hk; rw [mem_block] at hk'; omega

theorem seen_one : seen 1 = Finset.univ.map (col 0 (by omega)) := by
  rw [seen_succ 0 (by omega), seen_zero, Finset.empty_union]

theorem seen_four : seen 4 = Finset.univ := by
  ext k; rw [mem_seen]; have := k.isLt
  exact ⟨fun _ => Finset.mem_univ _, fun _ => by omega⟩

/-- Every row of tile `a`'s carried buffers is in the recurrence's state for the first `n` blocks of key rows. -/
def RowInv (q kk vv : Fin 8192 → Fin 32 → ℝ) (a n : ℕ) (ms ls : Vec Ideal S1024x1 .f32) (ac : Vec Ideal S1024x32 .f32) : Prop :=
  ∀ (p : Fin 1024) (r : Fin 8192), r.val = 1024 * a + p.val →
    Inv (score q kk r) vv (seen n) (ms (ix2 p (0 : Fin 1))) (ls (ix2 p (0 : Fin 1))) (fun d : Fin 32 => ac (ix2 p d))

variable (q kk vv : Fin 8192 → Fin 32 → ℝ)

/-- The block's scores of row `p`, from real blocks. -/
theorem scores_real (a j : ℕ) (hj : j < 4) (x0 : Vec Ideal S1024x32 .f32) (x1 : Vec Ideal S2048x32 .f32)
    (hx0 : ∀ (p : Fin 1024) (c : Fin 32) (r : Fin 8192), r.val = 1024 * a + p.val → x0 (ix2 p c) = ((q r c : ℝ) : EReal))
    (hx1 : ∀ (x : Fin 2048) (c : Fin 32), x1 (ix2 x c) = ((kk (col j hj x) c : ℝ) : EReal))
    (p : Fin 1024) (r : Fin 8192) (hr : r.val = 1024 * a + p.val) :
    (fun k : Fin 2048 => k0_pay7 (F := Ideal) x0 x1 (ix2 p k)) = fun x => ((score q kk r (col j hj x) : ℝ) : EReal) := by
  funext x
  rw [scores_apply]; unfold score; rw [coe_sum]
  exact Finset.sum_congr rfl fun c _ => by rw [hx0 p c r hr, hx1 x c, EReal.coe_mul]

/-- A tile's first point: from the reset values to the state after one block. -/
theorem first_point (a : ℕ) (x0 : Vec Ideal S1024x32 .f32) (x1 x2 : Vec Ideal S2048x32 .f32)
    (hx0 : ∀ (p : Fin 1024) (c : Fin 32) (r : Fin 8192), r.val = 1024 * a + p.val → x0 (ix2 p c) = ((q r c : ℝ) : EReal))
    (hx1 : ∀ (x : Fin 2048) (c : Fin 32), x1 (ix2 x c) = ((kk (col 0 (by omega) x) c : ℝ) : EReal))
    (hx2 : ∀ (x : Fin 2048) (d : Fin 32), x2 (ix2 x d) = ((vv (col 0 (by omega) x) d : ℝ) : EReal)) :
    RowInv q kk vv a 1 (k0_pay2 (k0_pay8 x0 x1 (k0_pay4 (F := Ideal)))) (k0_pay11 x0 x1 (k0_pay4 (F := Ideal)) (k0_pay5 (F := Ideal)))
      (k0_pay1 (k0_pay12 x0 x1 (k0_pay4 (F := Ideal)) x2 (k0_pay6 (F := Ideal)))) := by
  intro p r hr
  have hS := scores_real q kk a 0 (by omega) x0 x1 hx0 hx1 p r hr
  have hA : (fun d : Fin 32 => k0_pay12 (F := Ideal) x0 x1 (k0_pay4 (F := Ideal)) x2 (k0_pay6 (F := Ideal)) (ix2 p d))
      = fun d => aNew ⊥ 0 (fun x => ((score q kk r (col 0 (by omega) x) : ℝ) : EReal))
          (fun x => ((vv (col 0 (by omega) x) d : ℝ) : EReal)) := by
    funext d
    rw [acc_apply, hS, reset_max, reset_acc]
    exact congrArg (aNew _ _ _) (funext fun x => hx2 x d)
  rw [pay2_eq, pay1_eq, max_apply, norm_apply, hS, hA, reset_max, reset_norm, seen_one]
  exact step_first (by omega) (col 0 (by omega)) (score q kk r) vv

/-- A later point of the tile: from the state after `j` blocks to the state after `j + 1`. -/
theorem next_point (a j : ℕ) (hj : j < 4) (x0 : Vec Ideal S1024x32 .f32) (x1 x2 : Vec Ideal S2048x32 .f32)
    (ms ls : Vec Ideal S1024x1 .f32) (ac : Vec Ideal S1024x32 .f32)
    (hx0 : ∀ (p : Fin 1024) (c : Fin 32) (r : Fin 8192), r.val = 1024 * a + p.val → x0 (ix2 p c) = ((q r c : ℝ) : EReal))
    (hx1 : ∀ (x : Fin 2048) (c : Fin 32), x1 (ix2 x c) = ((kk (col j hj x) c : ℝ) : EReal))
    (hx2 : ∀ (x : Fin 2048) (d : Fin 32), x2 (ix2 x d) = ((vv (col j hj x) d : ℝ) : EReal))
    (h : RowInv q kk vv a j ms ls ac) :
    RowInv q kk vv a (j + 1) (k0_pay2 (k0_pay8 x0 x1 ms)) (k0_pay11 x0 x1 ms ls) (k0_pay1 (k0_pay12 x0 x1 ms x2 ac)) := by
  intro p r hr
  have hS := scores_real q kk a j hj x0 x1 hx0 hx1 p r hr
  have hA : (fun d : Fin 32 => k0_pay12 (F := Ideal) x0 x1 ms x2 ac (ix2 p d))
      = fun d => aNew (ms (ix2 p (0 : Fin 1))) (ac (ix2 p d)) (fun x => ((score q kk r (col j hj x) : ℝ) : EReal))
          (fun x => ((vv (col j hj x) d : ℝ) : EReal)) := by
    funext d
    rw [acc_apply, hS]
    exact congrArg (aNew _ _ _) (funext fun x => hx2 x d)
  rw [pay2_eq, pay1_eq, max_apply, norm_apply, hS, hA, seen_succ j hj]
  exact step_next (by omega) (col j hj) (score q kk r) vv (seen j) (seen_disj j hj) _ _ _ (h p r hr)

/-- The tile's last store: the weighted sum over the normalizer, once all four blocks are in. -/
theorem output_row (a : ℕ) (ms ls : Vec Ideal S1024x1 .f32) (ac : Vec Ideal S1024x32 .f32)
    (h : RowInv q kk vv a 4 ms ls ac) (p : Fin 1024) (d : Fin 32) (r : Fin 8192) (hr : r.val = 1024 * a + p.val) :
    k0_pay3 (F := Ideal) ac ls (ix2 p d) = ((wsum (score q kk r) vv Finset.univ d : ℝ) : EReal) := by
  have h' := h p r hr
  rw [seen_four] at h'
  rw [out_apply]
  exact final_div (score q kk r) vv Finset.univ Finset.univ_nonempty _ _ _ h' d

end Cert.KernelIdeal.Tiles

end
-- ==== Proof.GridValue.lean ====
/-
  The attention kernel's result array, read off its run.

  The grid is 8 tiles of 1024 query rows by 4 blocks of 2048 key rows; point `t` is tile `t / 4`, block `t % 4`.  The
  query window's block at `t` is rows `1024 · (t / 4) + p` of the first argument, the key and value windows' blocks rows
  `2048 · (t % 4) + x` of the second and third, and the output window's block rows `1024 · (t / 4) + p` of the result;
  it is written back at the tile's last point only.  By induction on the point, the three carried buffers after point `t`
  are in the blockwise recurrence's state for the key rows of blocks `0 … t % 4` (the tile's first point starts from the
  reset values; every other point continues from the point before, in the same tile).  So at a tile's last point all 8192
  key rows are in, the block written back is the softmax-weighted sum of the value rows, and the eight blocks written back
  cover the result array.
-/
import proofs.«163084_j29076928594213_2_alg».proof.Proof.Gen.KernelIdeal.Value
import proofs.«163084_j29076928594213_2_alg».proof.Proof.Pieces
import proofs.«163084_j29076928594213_2_alg».proof.Proof.Tiles

set_option maxRecDepth 16384

noncomputable section

open scoped BigOperators

namespace Cert.KernelIdeal.GridValue

open Cert.KernelIdeal Cert.KernelIdeal.Gen Cert.KernelIdeal.Value Idealize.ShloMosaic Idealize.ShloMosaic.TcCoe Idealize.SL.Sem
open Idealize.ShloMosaic.ValueIdx Cert.OnlineSoftmax Cert.KernelIdeal.StepValue Cert.KernelIdeal.Tiles Cert.KernelIdeal.Pieces
open Idealize.ShloMosaic.Pipeline (Dat)

variable (m : (ℓ : Loc nD τ sig) → Buf (Elt Ideal) ℓ) (ρ : Dev nD → PrngReg)
variable (q kk vv : Fin 8192 → Fin 32 → ℝ)

/-- The printed index maps over the grid: the query and output windows follow the tile, the key and value windows the block. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val % 4 ∧ win0_2.index t (1 : Fin 2) = 0
    ∧ win0_3.index t (0 : Fin 2) = t.val / 4 ∧ win0_3.index t (1 : Fin 2) = 0 :=
  (by decide +kernel : ∀ t : Fin grid0.N, _)

/-- The query block at point `t`: rows `1024 · (t / 4) + p` of the first argument. -/
theorem qblk (c : Dev nD) (t : Fin cfg0.N) (p : Fin 1024) (cc : Fin 32) (r : Fin 8192)
    (hr : r.val = 1024 * (t.val / 4) + p.val) :
    (iblk m c 0 t : Vec Ideal S1024x32 .f32) (ix2 p cc) = (V m c main_arg0 : S8192x32.Idx → EReal) (ix2 r cc) := by
  obtain ⟨e0, e1, -⟩ := idx_facts t
  unfold iblk
  rw [View.read_apply]
  show V m c main_arg0 (((cfg0.win 0).blk t).view.emb (ix2 p cc)) = V m c main_arg0 (ix2 r cc)
  refine congrArg (V m c main_arg0) ?_
  funext a; apply Fin.ext
  match a with
  | ⟨0, _⟩ => show win0_0.index t (0 : Fin 2) * 1024 + 1 * p.val = r.val; omega
  | ⟨1, _⟩ => show win0_0.index t (1 : Fin 2) * 32 + 1 * cc.val = cc.val; omega

/-- The key block at point `t`: rows `2048 · (t % 4) + x` of the second argument. -/
theorem kblk (c : Dev nD) (t : Fin cfg0.N) (j : ℕ) (hj : j < 4) (hjt : t.val % 4 = j) (x : Fin 2048) (cc : Fin 32) :
    (iblk m c 1 t : Vec Ideal S2048x32 .f32) (ix2 x cc) = (V m c main_arg1 : S8192x32.Idx → EReal) (ix2 (col j hj x) cc) := by
  obtain ⟨-, -, e2, e3, -⟩ := idx_facts t
  unfold iblk
  rw [View.read_apply]
  show V m c main_arg1 (((cfg0.win 1).blk t).view.emb (ix2 x cc)) = V m c main_arg1 (ix2 (col j hj x) cc)
  refine congrArg (V m c main_arg1) ?_
  funext a; apply Fin.ext
  match a with
  | ⟨0, _⟩ => show win0_1.index t (0 : Fin 2) * 2048 + 1 * x.val = 2048 * j + x.val; omega
  | ⟨1, _⟩ => show win0_1.index t (1 : Fin 2) * 32 + 1 * cc.val = cc.val; omega

/-- The value block at point `t`: rows `2048 · (t % 4) + x` of the third argument. -/
theorem vblk (c : Dev nD) (t : Fin cfg0.N) (j : ℕ) (hj : j < 4) (hjt : t.val % 4 = j) (x : Fin 2048) (d : Fin 32) :
    (iblk m c 2 t : Vec Ideal S2048x32 .f32) (ix2 x d) = (V m c main_arg2 : S8192x32.Idx → EReal) (ix2 (col j hj x) d) := by
  obtain ⟨-, -, -, -, e4, e5, -⟩ := idx_facts t
  unfold iblk
  rw [View.read_apply]
  show V m c main_arg2 (((cfg0.win 2).blk t).view.emb (ix2 x d)) = V m c main_arg2 (ix2 (col j hj x) d)
  refine congrArg (V m c main_arg2) ?_
  funext a; apply Fin.ext
  match a with
  | ⟨0, _⟩ => show win0_2.index t (0 : Fin 2) * 2048 + 1 * x.val = 2048 * j + x.val; omega
  | ⟨1, _⟩ => show win0_2.index t (1 : Fin 2) * 32 + 1 * d.val = d.val; omega

/-- The three argument arrays hold the reals `q`, `kk`, `vv`. -/
structure RealArgs (c : Dev nD) : Prop where
  hQ : ∀ (r : Fin 8192) (cc : Fin 32), (V m c main_arg0 : S8192x32.Idx → EReal) (ix2 r cc) = ((q r cc : ℝ) : EReal)
  hK : ∀ (r : Fin 8192) (cc : Fin 32), (V m c main_arg1 : S8192x32.Idx → EReal) (ix2 r cc) = ((kk r cc : ℝ) : EReal)
  hV : ∀ (r : Fin 8192) (cc : Fin 32), (V m c main_arg2 : S8192x32.Idx → EReal) (ix2 r cc) = ((vv r cc : ℝ) : EReal)

variable {m q kk vv}

/-- The blocks at point `t` as real blocks, in the form the tile's steps take them. -/
theorem blocks_real {c : Dev nD} (H : RealArgs m q kk vv c) (t : Fin cfg0.N) (j : ℕ) (hj : j < 4) (hjt : t.val % 4 = j) :
    (∀ (p : Fin 1024) (cc : Fin 32) (r : Fin 8192), r.val = 1024 * (t.val / 4) + p.val →
        (iblk m c 0 t : Vec Ideal S1024x32 .f32) (ix2 p cc) = ((q r cc : ℝ) : EReal))
    ∧ (∀ (x : Fin 2048) (cc : Fin 32), (iblk m c 1 t : Vec Ideal S2048x32 .f32) (ix2 x cc) = ((kk (col j hj x) cc : ℝ) : EReal))
    ∧ (∀ (x : Fin 2048) (d : Fin 32), (iblk m c 2 t : Vec Ideal S2048x32 .f32) (ix2 x d) = ((vv (col j hj x) d : ℝ) : EReal)) :=
  ⟨fun p cc r hr => (qblk m c t p cc r hr).trans (H.hQ r cc),
   fun x cc => (kblk m c t j hj hjt x cc).trans (H.hK _ cc),
   fun x d => (vblk m c t j hj hjt x d).trans (H.hV _ d)⟩

/-- After point `n` the carried buffers are in the recurrence's state for blocks `0 … n % 4` of tile `n / 4`. -/
theorem carried_inv {c : Dev nD} (H : RealArgs m q kk vv c) : ∀ (n : ℕ) (hn : n < cfg0.N),
    RowInv q kk vv (n / 4) (n % 4 + 1) (outsAt0 m c n hn).2.1 (outsAt0 m c n hn).2.2.1 (outsAt0 m c n hn).2.2.2
  | 0, hn => by
    obtain ⟨b0, b1, b2⟩ := blocks_real H ⟨0, hn⟩ 0 (by omega) rfl
    rw [outsAt0_A m c ⟨0, hn⟩ rfl (show ¬(0 : ℕ) % 4 = 3 by decide)]
    dsimp only
    rw [sA0, sA1, sA2]
    exact first_point q kk vv (0 / 4) _ _ _ b0 b1 b2
  | n + 1, hn => by
    have hN : cfg0.N = 32 := N_0
    have ih := carried_inv H n (Nat.lt_of_succ_lt hn)
    by_cases h0 : (n + 1) % 4 = 0
    · have h1 : ¬(n + 1) % 4 = 3 := by omega
      obtain ⟨b0, b1, b2⟩ := blocks_real H ⟨n + 1, hn⟩ 0 (by omega) h0
      rw [outsAt0_A m c ⟨n + 1, hn⟩ h0 h1]
      dsimp only
      rw [sA0, sA1, sA2, h0]
      exact first_point q kk vv ((n + 1) / 4) _ _ _ b0 b1 b2
    · have e4 : (n + 1) / 4 = n / 4 := by omega
      have ej : (n + 1) % 4 = n % 4 + 1 := by omega
      have hj : (n + 1) % 4 < 4 := Nat.mod_lt _ (by omega)
      obtain ⟨b0, b1, b2⟩ := blocks_real H ⟨n + 1, hn⟩ ((n + 1) % 4) hj rfl
      have ih' : RowInv q kk vv ((n + 1) / 4) ((n + 1) % 4) (outsAt0 m c n (Nat.lt_of_succ_lt hn)).2.1
          (outsAt0 m c n (Nat.lt_of_succ_lt hn)).2.2.1 (outsAt0 m c n (Nat.lt_of_succ_lt hn)).2.2.2 := by
        rw [e4, ej]; exact ih
      by_cases h1 : (n + 1) % 4 = 3
      · rw [outsAt0_C m c ⟨n + 1, hn⟩ h0 h1]
        dsimp only
        rw [sC0, sC1, sC2]
        exact next_point q kk vv ((n + 1) / 4) ((n + 1) % 4) hj _ _ _ _ _ _ b0 b1 b2 ih'
      · rw [outsAt0_B m c ⟨n + 1, hn⟩ h0 h1]
        dsimp only
        rw [sB0, sB1, sB2]
        exact next_point q kk vv ((n + 1) / 4) ((n + 1) % 4) hj _ _ _ _ _ _ b0 b1 b2 ih'

variable (q kk vv)

/-- The result array: row `r` is the softmax-weighted sum, over all key rows, of the value rows. -/
def G : S8192x32.Idx → EReal := fun i =>
  ((wsum (score q kk ⟨(i 0).val, (i 0).isLt⟩) vv Finset.univ ⟨(i 1).val, (i 1).isLt⟩ : ℝ) : EReal)

theorem G_ix2 (r : Fin 8192) (d : Fin 32) : G q kk vv (ix2 r d) = ((wsum (score q kk r) vv Finset.univ d : ℝ) : EReal) := rfl

variable {q kk vv}

/-- What a tile's last point writes back is its block of `G`. -/
theorem flushed_eq {c : Dev nD} (H : RealArgs m q kk vv c) (t : Fin cfg0.N) (hf : (cfg0.win 3).flush t = true) :
    (dats m 0 c).flushed 3 t = ((cfg0.win 3).blk t).view.read (Elt Ideal) (G q kk vv) := by
  have hN : cfg0.N = 32 := N_0
  have h1 : t.val % 4 = 3 := (flush0_3 t).mp hf
  have h0 : ¬t.val % 4 = 0 := by omega
  have hlt := t.isLt
  obtain ⟨-, -, -, -, -, -, e6, e7⟩ := idx_facts t
  obtain ⟨b0, b1, b2⟩ := blocks_real H t 3 (by omega) h1
  have ih := carried_inv H (t.val - 1) (Nat.lt_of_le_of_lt (Nat.sub_le _ _) t.isLt)
  have e4 : (t.val - 1) / 4 = t.val / 4 := by omega
  have ej : (t.val - 1) % 4 + 1 = 3 := by omega
  rw [e4, ej] at ih
  have hlast := next_point q kk vv (t.val / 4) 3 (by omega) _ _ _ _ _ _ b0 b1 b2 ih
  rw [flushed3_C m c t h0 h1, oC3]
  funext y
  have hy0 : (y 0).val < 1024 := (y 0).isLt
  have hy1 : (y 1).val < 32 := (y 1).isLt
  have hx : (cfg0.win 3).xinj (grid0.coords t) y = ix2 (⟨(y 0).val, hy0⟩ : Fin 1024) (⟨(y 1).val, hy1⟩ : Fin 32) :=
    funext fun a => Fin.ext (by match a with | ⟨0, _⟩ => rfl | ⟨1, _⟩ => rfl)
  have he : ((cfg0.win 3).blk t).view.emb y
      = ix2 (⟨1024 * (t.val / 4) + (y 0).val, by omega⟩ : Fin 8192) (⟨(y 1).val, hy1⟩ : Fin 32) :=
    funext fun a => Fin.ext (by
      match a with
      | ⟨0, _⟩ => show win0_3.index t (0 : Fin 2) * 1024 + 1 * (y 0).val = 1024 * (t.val / 4) + (y 0).val; omega
      | ⟨1, _⟩ => show win0_3.index t (1 : Fin 2) * 32 + 1 * (y 1).val = (y 1).val; omega)
  rw [View.read_apply]
  show k0_pay3 (F := Ideal) _ _ ((cfg0.win 3).xinj (grid0.coords t) y) = G q kk vv (((cfg0.win 3).blk t).view.emb y)
  rw [hx, he, G_ix2]
  exact output_row q kk vv (t.val / 4) _ _ _ hlast _ _ _ rfl

/-- The eight blocks written back cover the result array, so it ends holding `G`. -/
theorem final {c : Dev nD} (H : RealArgs m q kk vv c) : (dats m 0 c).arrAt 3 cfg0.N = G q kk vv :=
  (dats m 0 c).arrAt_eq_of_cover 3 (G q kk vv) (fun t hf => flushed_eq H t hf) fun i => by
    have hN : cfg0.N = 32 := N_0
    have hi0 : (i 0).val < 8192 := (i 0).isLt
    have hi1 : (i 1).val < 32 := (i 1).isLt
    have hb : 4 * ((i 0).val / 1024) + 3 < cfg0.N := by rw [hN]; omega
    obtain ⟨-, -, -, -, -, -, e6, e7⟩ := idx_facts ⟨4 * ((i 0).val / 1024) + 3, hb⟩
    have e6' : win0_3.index ⟨4 * ((i 0).val / 1024) + 3, hb⟩ (0 : Fin 2) = (4 * ((i 0).val / 1024) + 3) / 4 := e6
    refine ⟨⟨4 * ((i 0).val / 1024) + 3, hb⟩, (flush0_3 _).mpr (by show (4 * ((i 0).val / 1024) + 3) % 4 = 3; omega), ?_⟩
    show i ∈ ((View.whole main_v0).slice (win0_3.rect ⟨4 * ((i 0).val / 1024) + 3, hb⟩)).set
    rw [View.set_slice_whole, Rect.mem_set_unit]
    intro a
    match a with
    | ⟨0, _⟩ =>
      show win0_3.index ⟨4 * ((i 0).val / 1024) + 3, hb⟩ (0 : Fin 2) * 1024 ≤ (i 0).val
        ∧ (i 0).val < win0_3.index ⟨4 * ((i 0).val / 1024) + 3, hb⟩ (0 : Fin 2) * 1024 + 1024
      omega
    | ⟨1, _⟩ =>
      show win0_3.index ⟨4 * ((i 0).val / 1024) + 3, hb⟩ (1 : Fin 2) * 32 ≤ (i 1).val
        ∧ (i 1).val < win0_3.index ⟨4 * ((i 0).val / 1024) + 3, hb⟩ (1 : Fin 2) * 32 + 32
      omega

end Cert.KernelIdeal.GridValue

end
-- ==== Proof.RefValue.lean ====
/-
  The reference's result read at an index: plain softmax attention.

  For real arrays the reference's scores are `S (r, k) = ∑_c q r c · kk k c`; the row maximum (folded from `-∞` over the
  8192 real scores of the row, then taken against `-∞` once more) is a real `μ`; the exponentials are `exp (S (r, k) - μ)`,
  their row sum starts from zero, each exponential is divided by the row sum, and the result's entry `(r, d)` is the sum
  over `k` of that quotient times `vv k d`: the softmax-weighted sum of the value rows, whatever the real `μ`.
-/
import proofs.«163084_j29076928594213_2_alg».proof.Proof.Gen.ReferenceIdeal.Read
import proofs.«163084_j29076928594213_2_alg».proof.Proof.LibOnlineSoftmax
import proofs.«163084_j29076928594213_2_alg».proof.Proof.Tiles
import proofs.«163084_j29076928594213_2_alg».proof.Proof.LibKeepdims
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.OnlineSoftmax
open Cert.KernelIdeal.Tiles (score)

variable (q kk vv : Fin 8192 → Fin 32 → ℝ) (x0 x1 x2 : S8192x32.Idx → EReal)
variable (hQ : ∀ (r : Fin 8192) (cc : Fin 32), x0 (ix2 r cc) = ((q r cc : ℝ) : EReal))
variable (hK : ∀ (r : Fin 8192) (cc : Fin 32), x1 (ix2 r cc) = ((kk r cc : ℝ) : EReal))
variable (hV : ∀ (r : Fin 8192) (cc : Fin 32), x2 (ix2 r cc) = ((vv r cc : ℝ) : EReal))

/-- The word `0xFF800000` denotes `-∞`. -/
theorem negInf : Ideal.ofBits .f32 0xFF800000#32 = (⊥ : EReal) := by
  simp [Ideal.ofBits, Ideal.ieee]

include hQ hK in
/-- The reference's scores are the real scores. -/
theorem scores (r k : Fin 8192) : val_main_v0 (F := Ideal) x0 x1 (ix2 r k) = ((score q kk r k : ℝ) : EReal) := by
  rw [val_main_v0_apply]; unfold score; rw [coe_sum]
  refine Finset.sum_congr rfl fun c _ => ?_
  have el : lidx_main_v0 (ix2 r k) c = ix2 r c := funext fun a => Fin.ext (by match a with | ⟨0, _⟩ => rfl | ⟨1, _⟩ => rfl)
  have er : ridx_main_v0 (ix2 r k) c = ix2 k c := funext fun a => Fin.ext (by match a with | ⟨0, _⟩ => rfl | ⟨1, _⟩ => rfl)
  rw [el, er, hQ, hK, EReal.coe_mul]

include hQ hK in
/-- The row maximum the reference subtracts is a real. -/
theorem rowmax (r : Fin 8192) : ∃ μ : ℝ, val_main_v3 (F := Ideal) x0 x1 (ix1 r) = (μ : EReal) := by
  obtain ⟨β, hβ⟩ := fold_max_coe (by norm_num : 0 < 8192) (fun k => score q kk r k)
  refine ⟨β, ?_⟩
  have hred : S8192x8192.Reduces [(1 : Fin 2)] S8192 := by decide
  have hf : (val_main_v0 (F := Ideal) x0 x1 ∘ hred.lift (ix1 r)) = fun k : Fin 8192 => ((score q kk r k : ℝ) : EReal) :=
    funext fun k => (congrArg (val_main_v0 (F := Ideal) x0 x1) (lift_row hred r k)).trans (scores q kk x0 x1 hQ hK r k)
  rw [val_main_v3_apply, val_main_v2_apply, val_main_cst_0_apply]
  show max (Ideal.ofBits .f32 0xFF800000#32) (val_main_v1 (F := Ideal) x0 x1 (ix1 r)) = _
  rw [negInf, max_eq_right bot_le]
  unfold val_main_v1
  rw [Host.reduce_eq_fold_single FloatOps.maximumf _ _ reducesTo_S8192x8192_S8192_d1 hred h_S_, hf, val_main_cst_apply]
  show Finset.fold max (Ideal.ofBits .f32 0xFF800000#32) _ _ = _
  rw [negInf]
  exact hβ

include hQ hK hV in
/-- The reference's result at `(r, d)`: the softmax-weighted sum of the value rows. -/
theorem result_apply (r : Fin 8192) (d : Fin 32) :
    val_main_v12 (F := Ideal) x0 x1 x2 (ix2 r d) = ((wsum (score q kk r) vv Finset.univ d : ℝ) : EReal) := by
  obtain ⟨μ, hμ⟩ := rowmax q kk x0 x1 hQ hK r
  have hE : ∀ k' : Fin 8192, val_main_v7 (F := Ideal) x0 x1 (ix2 r k')
      = Ideal.exp (((score q kk r k' : ℝ) : EReal) - (μ : EReal)) := by
    intro k'
    have e1 : idx_main_v4 (idx_main_v5 (ix2 r k')) = ix1 r := funext fun a => Fin.ext (by match a with | ⟨0, _⟩ => rfl)
    rw [val_main_v7_apply, val_main_v6_apply, val_main_v5_apply, val_main_v4_apply, e1, hμ, scores q kk x0 x1 hQ hK r k']
    rfl
  rw [val_main_v12_apply, ← ref_sum (score q kk r) vv μ d]
  refine Finset.sum_congr rfl fun k _ => ?_
  have el : lidx_main_v12 (ix2 r d) k = ix2 r k := funext fun a => Fin.ext (by match a with | ⟨0, _⟩ => rfl | ⟨1, _⟩ => rfl)
  have er : ridx_main_v12 (ix2 r d) k = ix2 k d := funext fun a => Fin.ext (by match a with | ⟨0, _⟩ => rfl | ⟨1, _⟩ => rfl)
  have e2 : idx_main_v9 (idx_main_v10 (ix2 r k)) = ix1 r := funext fun a => Fin.ext (by match a with | ⟨0, _⟩ => rfl)
  have e3 : ∀ k' : Fin 8192, idx_main_v8 (ix1 r) k' = ix2 r k' := fun k' => funext fun a => Fin.ext (by match a with | ⟨0, _⟩ => rfl | ⟨1, _⟩ => rfl)
  rw [el, er, hV]
  refine congrArg (· * ((vv k d : ℝ) : EReal)) ?_
  rw [val_main_v11_apply, val_main_v10_apply, val_main_v9_apply, e2, val_main_v8_apply, val_main_cst_1_apply, hE k]
  simp only [e3, hE]
  rw [Ideal.ofBits_def, Ideal.ofBits_zero_f32]
  rfl

end Cert.ReferenceIdeal.RefValue

end
-- ==== Proof.lean ====
/-
  Blockwise attention against plain softmax attention, on the extended reals.

  The kernel computes `softmax(Q Kᵀ) V` for Q, K, V of 8192 rows by 32 columns, one tile of 1024 query rows at a time, taking
  the key and value rows 2048 at a time and keeping a running maximum, a running normalizer and a running weighted sum
  that it rescales whenever the maximum moves; the reference forms all 8192 × 8192 scores, subtracts each row's maximum,
  exponentiates, divides by the row sum and multiplies by V.  Under the precondition every entry of Q, K and V is a real
  number, so every score, maximum, exponential and sum in both programs is a real, and both results are, entry by entry,
  the softmax-weighted sum `(∑_k exp (s_k) · v_k) / (∑_k exp (s_k))` of the value rows: a softmax does not change when one real
  is subtracted from every score — the row maximum in the reference, the final running maximum in the kernel — and the
  kernel's rescaling `exp (μ - μ') · exp (s - μ) = exp (s - μ')` keeps its running sums the sums for the current maximum.
  Dividing the weighted sum by the normalizer at the end (the kernel) or each weight before summing (the reference) is the
  same real number.  The roundings to bf16 in front of the kernel's two products are the identity on the extended reals,
  and a product accumulated from zero is the host's product.  The idealization rewrote nothing.
-/
import proofs.«163084_j29076928594213_2_alg».proof.Defs
import proofs.«163084_j29076928594213_2_alg».proof.Proof.Gen.Kernel
import proofs.«163084_j29076928594213_2_alg».proof.Proof.Gen.Kernel.Skeleton
import proofs.«163084_j29076928594213_2_alg».proof.Proof.Gen.Kernel.Launch
import proofs.«163084_j29076928594213_2_alg».proof.Proof.Gen.Kernel.Points
import proofs.«163084_j29076928594213_2_alg».proof.Proof.Gen.Kernel.Frame
import proofs.«163084_j29076928594213_2_alg».proof.Proof.Gen.KernelIdeal
import proofs.«163084_j29076928594213_2_alg».proof.Proof.Gen.KernelIdeal.Skeleton
import proofs.«163084_j29076928594213_2_alg».proof.Proof.Gen.KernelIdeal.Launch
import proofs.«163084_j29076928594213_2_alg».proof.Proof.Gen.KernelIdeal.Points
import proofs.«163084_j29076928594213_2_alg».proof.Proof.Gen.KernelIdeal.Frame
import proofs.«163084_j29076928594213_2_alg».proof.Proof.Gen.ReferenceIdeal
import proofs.«163084_j29076928594213_2_alg».proof.Proof.Gen.Pre_finite_inputs
import proofs.«163084_j29076928594213_2_alg».proof.Proof.Gen.KernelIdeal.Value
import proofs.«163084_j29076928594213_2_alg».proof.Proof.Gen.ReferenceIdeal.Run
import proofs.«163084_j29076928594213_2_alg».proof.Proof.Gen.ReferenceIdeal.Read
import proofs.«163084_j29076928594213_2_alg».proof.Proof.Finite
import proofs.«163084_j29076928594213_2_alg».proof.Proof.GridValue
import proofs.«163084_j29076928594213_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the softmax-weighted sums of the value rows, for the reals the three
    argument arrays hold. -/
theorem algebraic : Cert.algebraic_KernelIdeal_ReferenceIdeal := by
  intro m ρ m' ρ' hpre hagree
  have hreal := fun c : Dev Cert.KernelIdeal.nD => Cert.Pre_finite_inputs.Decode.all_real _ _ _ (hpre c)
  let q : Dev Cert.KernelIdeal.nD → Fin 8192 → Fin 32 → ℝ := fun c r cc => Classical.choose ((hreal c).1 (ix2 r cc))
  let kk : Dev Cert.KernelIdeal.nD → Fin 8192 → Fin 32 → ℝ := fun c r cc => Classical.choose ((hreal c).2.1 (ix2 r cc))
  let vv : Dev Cert.KernelIdeal.nD → Fin 8192 → Fin 32 → ℝ := fun c r cc => Classical.choose ((hreal c).2.2 (ix2 r cc))
  have H : ∀ c, Cert.KernelIdeal.GridValue.RealArgs m (q c) (kk c) (vv c) c := fun c =>
    ⟨fun r cc => Classical.choose_spec ((hreal c).1 (ix2 r cc)),
     fun r cc => Classical.choose_spec ((hreal c).2.1 (ix2 r cc)),
     fun r cc => Classical.choose_spec ((hreal c).2.2 (ix2 r cc))⟩
  refine ⟨fun c => Cert.KernelIdeal.GridValue.G (q c) (kk c) (vv c), ?_, ?_⟩
  · exact (θ_run Cert.KernelIdeal.defs _ _).mono
      (fun r h c => ⟨(h c).1.trans (Cert.KernelIdeal.GridValue.final (H c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v12_eq _ _ _).trans ?_
    funext i
    obtain ⟨r, d, rfl⟩ : ∃ (r : Fin 8192) (d : Fin 32), i = ix2 r d := ⟨i 0, i 1, eq_ix2 i⟩
    rw [(hagree c).1, (hagree c).2.1, (hagree c).2.2]
    exact Cert.ReferenceIdeal.RefValue.result_apply (q c) (kk c) (vv c) _ _ _ (H c).hQ (H c).hK (H c).hV r d

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
